-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048x2 : Shape := ⟨3, ![8192, 2048, 2]⟩
abbrev S_ : Shape := ⟨0, ![]⟩

class Facts : Prop where
  bcast_S_S8192x2048x2 : S_.BroadcastsInDim S8192x2048x2 (![] : Fin 0 → Fin S8192x2048x2.rank)
  reducesTo_S8192x2048x2_S_d0_1_2 : S8192x2048x2.ReducesTo [0, 1, 2] S_
  h_S_ : 0 < S_.numel

variable [Facts]

def fn {F : FTy → Type} [FloatOps F] (main_arg0 : FVec F S8192x2048x2 .f32) (main_arg1 : FVec F S8192x2048x2 .f32) : IVec S_ 1 :=
  let main_v0 : FVec F S8192x2048x2 .f32 := Host.absf main_arg0
  let main_cst : FVec F S_ .f32 := constant S_ .f32 0x7F800000#32
  let main_v1 : FVec F S8192x2048x2 .f32 := broadcastInDim S8192x2048x2 ![] bcast_S_S8192x2048x2 main_cst
  let main_v2 : IVec S8192x2048x2 1 := cmpf .olt main_v0 main_v1
  let main_c : IVec S_ 1 := constantI S_ 1 1#1
  let main_v3 : IVec S_ 1 := (fun x v => Host.reduce IntOp.andi x v reducesTo_S8192x2048x2_S_d0_1_2 h_S_) main_v2 main_c
  let main_v4 : FVec F S8192x2048x2 .f32 := Host.absf main_arg1
  let main_cst_0 : FVec F S_ .f32 := constant S_ .f32 0x7F800000#32
  let main_v5 : FVec F S8192x2048x2 .f32 := broadcastInDim S8192x2048x2 ![] bcast_S_S8192x2048x2 main_cst_0
  let main_v6 : IVec S8192x2048x2 1 := cmpf .olt main_v4 main_v5
  let main_c_1 : IVec S_ 1 := constantI S_ 1 1#1
  let main_v7 : IVec S_ 1 := (fun x v => Host.reduce IntOp.andi x v reducesTo_S8192x2048x2_S_d0_1_2 h_S_) main_v6 main_c_1
  let main_v8 : IVec S_ 1 := andi main_v3 main_v7
  main_v8
-- ==== Kernel.lean ====
abbrev S8192x2048x2 : Shape := ⟨3, ![8192, 2048, 2]⟩
abbrev S1x1 : Shape := ⟨2, ![1, 1]⟩
abbrev S256x2048x2 : Shape := ⟨3, ![256, 2048, 2]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048x2, .f32⟩
  | .hbm, ⟨1, _⟩ => ⟨S8192x2048x2, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S256x2048x2, .f32⟩
  | .local _ .vmem, ⟨1, _⟩ => ⟨S256x2048x2, .f32⟩
  | .local _ .vmem, ⟨2, _⟩ => ⟨S256x2048x2, .f32⟩
  | .local _ .vmem, ⟨3, _⟩ => ⟨S256x2048x2, .f32⟩
  | .local _ .vmem, ⟨4, _⟩ => ⟨S1x1, .f32⟩
  | .local _ .vmem, ⟨5, _⟩ => ⟨S1x1, .f32⟩
  | _, _ => ⟨S8192x2048x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v22 : BitVec 1 := Scalar.cmpi .eq arg0 c31_i32
  let v23 : BitVec 32 := Scalar.extui v22
  let c0_i32_14 : BitVec 32 := 0#32
  let v24 : BitVec 1 := Scalar.cmpi .ne v23 c0_i32_14
  v24

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S256x2048x2_S256x2048x2_0_0_0 : ∀ a, (![0, 0, 0] : Fin 3 → Nat) a + S256x2048x2.size a ≤ S256x2048x2.size a
  h_S256x2048x2 : 0 < S256x2048x2.numel
  reduces_S256x2048x2_S256x2048 : S256x2048x2.Reduces [2] S256x2048
  reduces_S256x2048_S256 : S256x2048.Reduces [1] S256
  shapeCasts_S256_S256x1 : S256.ShapeCasts S256x1
  reduces_S256x1_S1 : S256x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048x2.size a ≤ S8192x2048x2.size a
  hwx0_0 : ∀ i : grid0.Coords, EltTy.bits .f32 = 32 ∨ (Rect.block (s := S8192x2048x2) S256x2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048x2.size a ≤ S8192x2048x2.size a
  hwx0_1 : ∀ i : grid0.Coords, EltTy.bits .f32 = 32 ∨ (Rect.block (s := S8192x2048x2) S256x2048x2.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S256x2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x2048x2 : Shape := ⟨3, ![8192, 2048, 2]⟩
abbrev S_ : Shape := ⟨0, ![]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048x2, .f32⟩
  | .hbm, ⟨1, _⟩ => ⟨S8192x2048x2, .f32⟩
  | .hbm, ⟨2, _⟩ => ⟨S8192x2048x2, .f32⟩
  | .hbm, ⟨3, _⟩ => ⟨S8192x2048x2, .f32⟩
  | .hbm, ⟨4, _⟩ => ⟨S_, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | _, _ => ⟨S8192x2048x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  reducesTo_S8192x2048x2_S8192x2048_d2 : S8192x2048x2.ReducesTo [2] S8192x2048
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts₀]

class Facts : Prop extends Facts₀ where

variable [Facts]
-- ==== Proof.Pieces.lean ====
/-
  What one run of the kernel body leaves behind, as values, at any float instance.

  The body keeps a running total in a one-cell scratch buffer. At every grid point it adds the point's block sum to
  the cell; at the first point it first stores zero into the cell, and at the last point it also copies the cell to
  the output block. The frame certificate records, per case of the two conditionals, the list of stores each buffer
  ends with; here each list is read back as one value:
    * first point:            the scratch ends at `body (block) 0`          (`k0_pay2 x0 x1 k0_pay1`),
    * a middle point:         the scratch ends at `body (block) (previous)` (`k0_pay2 x0 x1 xs`),
    * last point:             the same, and the output block holds the same value.
  (`k0_pay2 x0 x1 s` is the body's arithmetic: `s` plus the block sum of the two input blocks.)
-/
import proofs.«157379_j20830591386196_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole one-cell buffer, and of a whole input block. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the scratch cell, holding `xs`, ends at the body's value over `xs`. -/
theorem scratch_B (c : Dev nD) (i : grid0.Coords) (a1 : Memref sig .tc .vmem S256x2048x2 .f32) (h1 : a1.IsWhole)
    (a2 : Memref sig .tc .vmem S256x2048x2 .f32) (h2 : a2.IsWhole) (a3 : Memref sig .tc .vmem S1x1 .f32) (h3 : a3.IsWhole)
    (a4 : Memref sig .tc .vmem S1x1 .f32) (h4 : a4.IsWhole) (hc0 : ¬cond0_0 i) (hc1 : ¬cond0_1 i)
    (x0 x1 : Vec F S256x2048x2 .f32) (xs : Vec F S1x1 .f32) :
    sout0_B_0 c i a1 h1 a2 h2 a3 h3 a4 h4 hc0 hc1 x0 x1 xs = k0_pay2 x0 x1 xs := by
  unfold sout0_B_0
  rw [View.read_writes_eq_canon _ _ _ (scover0_B_0 c i a1 h1 a2 h2 a3 h3 a4 h4 hc0 hc1 x0 x1 xs)]
  unfold kernelRun0_B
  dsimp only
  rw [View.canon_unit_zero hz2]
  simp only [View.readAt_eq_ld, h1.read_unread, h2.read_unread, h4.read_unread,
    View.ld_unit_zero (S := S256x2048x2) hz3, View.ld_unit_zero (S := S1x1) hz2]

/-- The first point: the scratch cell is zeroed, read back, and ends at the body's value over the zero cell. -/
theorem scratch_A (c : Dev nD) (i : grid0.Coords) (a1 : Memref sig .tc .vmem S256x2048x2 .f32) (h1 : a1.IsWhole)
    (a2 : Memref sig .tc .vmem S256x2048x2 .f32) (h2 : a2.IsWhole) (a3 : Memref sig .tc .vmem S1x1 .f32) (h3 : a3.IsWhole)
    (a4 : Memref sig .tc .vmem S1x1 .f32) (h4 : a4.IsWhole) (hc0 : cond0_0 i) (hc1 : ¬cond0_1 i)
    (x0 x1 : Vec F S256x2048x2 .f32) :
    sout0_A_0 c i a1 h1 a2 h2 a3 h3 a4 h4 hc0 hc1 x0 x1 = k0_pay2 x0 x1 (k0_pay1 (F := F)) := by
  unfold sout0_A_0
  rw [View.read_writes_eq_canon _ _ _ (scover0_A_0 c i a1 h1 a2 h2 a3 h3 a4 h4 hc0 hc1 x0 x1)]
  unfold kernelRun0_A
  dsimp only
  sl_unfold_words
  rw [View.canon_cons_unit_zero (S := S1x1) hz2, View.readCov_unit_zero (S := S1x1) _ hz2]
  simp only [View.readAt_eq_ld, h1.read_unread, h2.read_unread, View.ld_unit_zero (S := S256x2048x2) hz3]

/-- The last point: the scratch cell, holding `xs`, ends at the body's value over `xs`, -/
theorem scratch_C (c : Dev nD) (i : grid0.Coords) (a1 : Memref sig .tc .vmem S256x2048x2 .f32) (h1 : a1.IsWhole)
    (a2 : Memref sig .tc .vmem S256x2048x2 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x2048x2 .f32) (xs : Vec F S1x1 .f32) :
    sout0_C_0 c i a1 h1 a2 h2 a3 h3 a4 h4 hc0 hc1 x0 x1 xs = k0_pay2 x0 x1 xs := by
  unfold sout0_C_0
  rw [View.read_writes_eq_canon _ _ _ (scover0_C_0 c i a1 h1 a2 h2 a3 h3 a4 h4 hc0 hc1 x0 x1 xs)]
  unfold kernelRun0_C
  dsimp only
  sl_unfold_words
  rw [View.canon_unit_zero hz2]
  simp only [View.readAt_eq_ld, h1.read_unread, h2.read_unread, h4.read_unread,
    View.ld_unit_zero (S := S256x2048x2) hz3, View.ld_unit_zero (S := S1x1) hz2]

/-- and the output block is a copy of it. -/
theorem out_C (c : Dev nD) (i : grid0.Coords) (a1 : Memref sig .tc .vmem S256x2048x2 .f32) (h1 : a1.IsWhole)
    (a2 : Memref sig .tc .vmem S256x2048x2 .f32) (h2 : a2.IsWhole) (a3 : Memref sig .tc .vmem S1x1 .f32) (h3 : a3.IsWhole)
    (a4 : Memref sig .tc .vmem S1x1 .f32) (h4 : a4.IsWhole) (hc0 : ¬cond0_0 i) (hc1 : cond0_1 i)
    (x0 x1 : Vec F S256x2048x2 .f32) (xs : Vec F S1x1 .f32) :
    out0_C_2 c i a1 h1 a2 h2 a3 h3 a4 h4 hc0 hc1 x0 x1 xs = k0_pay2 x0 x1 xs := by
  unfold out0_C_2
  rw [View.read_writes_eq_canon _ _ _ (cover0_C_2 c i a1 h1 a2 h2 a3 h3 a4 h4 hc0 hc1 x0 x1 xs)]
  unfold kernelRun0_C
  dsimp only
  sl_unfold_words
  rw [View.canon_unit_zero hz2, View.readCov_unit_zero (S := S1x1) _ hz2]
  simp only [View.readAt_eq_ld, h1.read_unread, h2.read_unread, h4.read_unread,
    View.ld_unit_zero (S := S256x2048x2) hz3, View.ld_unit_zero (S := S1x1) hz2]

end Cert.KernelIdeal.Pieces

end
-- ==== Proof.Spec.lean ====
/-
  The quantity both programs compute, stated once over the two argument arrays, and the facts of arithmetic
  that join their two spellings of it.

  For arrays `x y` of shape [8192, 2048, 2] over the extended reals put, for a row `b` and a keypoint `k`,
      sqDist b k = ∑ j < 2, (x b k j - y b k j)²        and        gauss b k = exp (sqDist b k · (-1/2)).
  Both programs return (∑ b, ∑ k, gauss b k) / 8192. They differ in two places only:
    * one writes the exponent as `sqDist · (-1/2)`, the other as `(-sqDist) / 2` — `neg_div_two`, true of every
      extended real, the infinities included (a sign moves across a product, and a quotient by 2 is the product with 1/2);
    * one sums the 8192 rows at once, the other 32 blocks of 256 rows, block after block, into a running total that
      starts at zero — `sum_blocks` (the re-indexing b = 256 t + r) and `sum_range_eq`, true in any commutative
      monoid, so no finiteness is used anywhere.
-/
import Idealize.ShloMosaic.PureOps.Ideal
import Idealize.ShloMosaic.PureOps.Ideal.Laws
import Idealize.ShloMosaic.Lib.ValueIdx

noncomputable section

open scoped BigOperators

namespace Cert.GaussSum

open Idealize.ShloMosaic Idealize.ShloMosaic.ValueIdx

/-! ## The constants the two programs spell -/

/-- The pattern of `1.0` denotes `1`. -/
theorem ofBits_one : Ideal.ofBits .f32 0x3F800000#32 = 1 := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `-0.5` denotes the real `-(1/2)`. -/
theorem ofBits_neg_half : Ideal.ofBits .f32 0xBF000000#32 = ((-(1 / 2) : ℝ) : EReal) := by
  simp [Ideal.ofBits, Ideal.ieee, -EReal.coe_mul]; norm_num

/-- Halving the negation is multiplying by minus one half, on every extended real. -/
theorem neg_div_two (s : EReal) :
    Ideal.div (-s) (Ideal.ofBits .f32 0x40000000#32) = s * Ideal.ofBits .f32 0xBF000000#32 := by
  rw [ofBits_two, ofBits_neg_half, Ideal.div_coe (by norm_num : (2 : ℝ) ≠ 0), EReal.coe_neg, neg_mul, mul_neg]

/-! ## The function of the arguments -/

/-- The arguments' shape, and one block of 256 rows of it. -/
abbrev Arr : Shape := ⟨3, ![8192, 2048, 2]⟩
abbrev Blk : Shape := ⟨3, ![256, 2048, 2]⟩

/-- The squared distance between the two 2-vectors at row `b`, keypoint `k` (any number of rows `n`). -/
def sqDist {n : Nat} (x y : (⟨3, ![n, 2048, 2]⟩ : Shape).Idx → EReal) (b : Fin n) (k : Fin 2048) : EReal :=
  ∑ j : Fin 2, (x (ix3 b k j) - y (ix3 b k j)) * (x (ix3 b k j) - y (ix3 b k j))

/-- The Gaussian of it: `exp (sqDist · (-1/2))`, the factor kept as the pattern of `-0.5`. -/
def gauss {n : Nat} (x y : (⟨3, ![n, 2048, 2]⟩ : Shape).Idx → EReal) (b : Fin n) (k : Fin 2048) : EReal :=
  Ideal.exp (sqDist x y b k * Ideal.ofBits .f32 0xBF000000#32)

/-- The sum over every row and keypoint of an array of `n` rows. -/
def total {n : Nat} (x y : (⟨3, ![n, 2048, 2]⟩ : Shape).Idx → EReal) : EReal :=
  ∑ b : Fin n, ∑ k : Fin 2048, gauss x y b k

/-- What both programs return: the total over the batch's size, as a rank-0 array (the divisor kept as the pattern
    of `8192.0`, which both programs spell). -/
def result (x y : Arr.Idx → EReal) : (⟨0, ![]⟩ : Shape).Idx → EReal :=
  fun _ => Ideal.div (total x y) (Ideal.ofBits .f32 0x46000000#32)

/-! ## Rows by blocks -/

/-- Row `r` of block `t` is row `256 t + r` of the array. -/
def rowOf (t : Fin 32) (r : Fin 256) : Fin 8192 := ⟨256 * t.val + r.val, by omega⟩

/-- Block number and row within the block, against the row: a bijection (quotient and remainder by 256). -/
def blockEquiv : Fin 32 × Fin 256 ≃ Fin 8192 where
  toFun p := rowOf p.1 p.2
  invFun b := (⟨b.val / 256, by omega⟩, ⟨b.val % 256, by omega⟩)
  left_inv p := by
    obtain ⟨t, r⟩ := p
    apply Prod.ext <;> apply Fin.ext <;> simp only [rowOf] <;> omega
  right_inv b := by
    apply Fin.ext; simp only [rowOf]; omega

/-- Summing block by block is summing over all rows. -/
theorem sum_blocks {M : Type*} [AddCommMonoid M] (f : Fin 8192 → M) :
    ∑ t : Fin 32, ∑ r : Fin 256, f (rowOf t r) = ∑ b : Fin 8192, f b := by
  rw [← Fintype.sum_prod_type' (fun t r => f (rowOf t r))]
  exact Equiv.sum_comp blockEquiv f

/-- A running total over the first `n` natural numbers, of a function given on `Fin n`, is the sum over `Fin n`. -/
theorem sum_range_eq {M : Type*} [AddCommMonoid M] (n : ℕ) (B : Fin n → M) :
    ∑ t ∈ Finset.range n, (if h : t < n then B ⟨t, h⟩ else 0) = ∑ t : Fin n, B t := by
  rw [Finset.sum_range]
  exact Finset.sum_congr rfl fun t _ => by rw [dif_pos t.isLt]

/-- The array's total is the sum of its 32 blocks' totals, for any way `xb yb` of reading block `t` that agrees with
    the array at row `256 t + r`. -/
theorem total_blocks (x y : Arr.Idx → EReal) (xb yb : Fin 32 → Blk.Idx → EReal)
    (hx : ∀ t r k j, xb t (ix3 r k j) = x (ix3 (rowOf t r) k j))
    (hy : ∀ t r k j, yb t (ix3 r k j) = y (ix3 (rowOf t r) k j)) :
    ∑ t : Fin 32, total (xb t) (yb t) = total x y := by
  unfold total
  rw [← sum_blocks (fun b => ∑ k : Fin 2048, gauss x y b k)]
  refine Finset.sum_congr rfl fun t _ => Finset.sum_congr rfl fun r _ => Finset.sum_congr rfl fun k _ => ?_
  unfold gauss sqDist
  simp only [hx, hy]

end Cert.GaussSum

end
-- ==== Proof.Payload.lean ====
/-
  The kernel body's arithmetic, read at the ideal instance.

  On two input blocks `x0 x1` of 256 rows and a one-cell running total `s`, the body computes
      s + ∑ r < 256, ∑ k < 2048, 1 · exp ((∑ j < 2, (x0 - x1)²(r, k, j)) · (-1/2)),
  the three sums taken one axis at a time (the pair, then the keypoints of a row, then the rows), with two
  reshapes in between that only add a unit axis. At the ideal instance a sum along one axis started from the
  pattern of zero is the plain finite sum, the factor `1.0` is one, and so the body adds the block's
  `GaussSum.total` to the cell. The cell's initial value, stored at the first grid point, is zero.
-/
import proofs.«157379_j20830591386196_1_alg».proof.Proof.Gen.KernelIdeal.Skeleton
import proofs.«157379_j20830591386196_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Cert.GaussSum
open Idealize.ShloMosaic Idealize.ShloMosaic.ValueIdx

/-! ## The sums along one axis, at an index given by coordinates -/

/-- The sum over the pair (the last axis) at row `r`, keypoint `k`. -/
theorem pair_sum (v : FVec Ideal S256x2048x2 .f32) (h : S256x2048x2.Reduces [2] S256x2048) (hφ : FKind.Formats .f32)
    (hacc : (0x00000000#32 : BitVec 32) = FKind.add.neutral .f32 hφ) (r : Fin 256) (k : Fin 2048) :
    multiReduction .add [2] S256x2048 v 0x00000000#32 h hφ hacc (ix2 r k) = ∑ j : Fin 2, v (ix3 r k j) := by
  refine (Ideal.multiReduction_add_single v _ h hφ hacc (ix2 r k)).trans ?_
  refine Finset.sum_congr rfl fun j _ => congrArg v ?_
  exact funext fun a => Fin.ext (by match a with | ⟨0, _⟩ => rfl | ⟨1, _⟩ => rfl | ⟨2, _⟩ => rfl)

/-- The sum over the keypoints of row `r`. -/
theorem keypoint_sum (v : FVec Ideal S256x2048 .f32) (h : S256x2048.Reduces [1] S256) (hφ : FKind.Formats .f32)
    (hacc : (0x00000000#32 : BitVec 32) = FKind.add.neutral .f32 hφ) (r : Fin 256) :
    multiReduction .add [1] S256 v 0x00000000#32 h hφ hacc (ix1 r) = ∑ k : Fin 2048, v (ix2 r k) := by
  refine (Ideal.multiReduction_add_single v _ h hφ hacc (ix1 r)).trans ?_
  refine Finset.sum_congr rfl fun k _ => congrArg v ?_
  exact funext fun a => Fin.ext (by match a with | ⟨0, _⟩ => rfl | ⟨1, _⟩ => rfl)

/-- The sum over the rows of a one-column array. -/
theorem row_sum (v : FVec Ideal S256x1 .f32) (h : S256x1.Reduces [0] S1) (hφ : FKind.Formats .f32)
    (hacc : (0x00000000#32 : BitVec 32) = FKind.add.neutral .f32 hφ) :
    multiReduction .add [0] S1 v 0x00000000#32 h hφ hacc (ix1 (0 : Fin 1)) = ∑ r : Fin 256, v (ix2 r (0 : Fin 1)) := by
  refine (Ideal.multiReduction_add_single v _ h hφ hacc (ix1 (0 : Fin 1))).trans ?_
  refine Finset.sum_congr rfl fun r _ => congrArg v ?_
  exact funext fun a => Fin.ext (by match a with | ⟨0, _⟩ => rfl | ⟨1, _⟩ => rfl)

/-! ## The two reshapes that add a unit axis -/

/-- A vector of 256 entries viewed as one column: entry `(r, 0)` is entry `r`. -/
theorem column_cast (v : S256.Idx → EReal) (h : S256.ShapeCasts S256x1) (r : Fin 256) :
    shapeCast S256x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-- A one-entry vector viewed as a one-by-one array: its one entry. -/
theorem cell_cast (v : S1.Idx → EReal) (h : S1.ShapeCasts S1x1) (j : S1x1.Idx) :
    shapeCast S1x1 v h j = v (ix1 (0 : Fin 1)) :=
  shapeCast_apply v h j (ix1 (0 : Fin 1)) (by
    rw [Shape.rowMajor_val_one, Shape.rowMajor_val_two]
    have h0 : (j 0).val < 1 := (j 0).isLt
    have h1 : (j 1).val < 1 := (j 1).isLt
    show 0 = (j 0).val * 1 + (j 1).val
    omega)

/-! ## The body's two stored values -/

/-- The value the first grid point stores into the cell is zero. -/
theorem pay1_apply (j : S1x1.Idx) : k0_pay1 (F := Ideal) j = 0 := by
  unfold k0_pay1
  refine (congrFun (shapeCast_self _ _) j).trans ?_
  exact Ideal.ofBits_zero_f32

/-- The value every grid point stores into the cell: the cell plus the block's total. -/
theorem pay2_apply (x0 x1 : Vec Ideal S256x2048x2 .f32) (s : Vec Ideal S1x1 .f32) (j : S1x1.Idx) :
    k0_pay2 (F := Ideal) x0 x1 s j = s j + total x0 x1 := by
  unfold k0_pay2
  refine (congrFun (shapeCast_self _ _) j).trans ?_
  show s j + shapeCast S1x1 _ _ j = _
  refine congrArg (s j + ·) ?_
  refine (cell_cast _ _ j).trans ?_
  refine (row_sum _ _ _ _).trans ?_
  unfold total
  refine Finset.sum_congr rfl fun r _ => ?_
  refine (column_cast _ _ r).trans ?_
  refine (keypoint_sum _ _ _ _ r).trans ?_
  refine Finset.sum_congr rfl fun k _ => ?_
  unfold gauss
  show Ideal.ofBits .f32 0x3F800000#32 * Ideal.exp (_ * Ideal.ofBits .f32 0xBF000000#32) = _
  rw [ofBits_one, one_mul]
  refine congrArg (fun z => Ideal.exp (z * Ideal.ofBits .f32 0xBF000000#32)) ?_
  refine (pair_sum _ _ _ _ r k).trans ?_
  rfl

end Cert.KernelIdeal.Payload

end
-- ==== Proof.Chain.lean ====
/-
  The running total, point by point.

  After the body at grid point `n` the one-cell scratch holds the sum of the totals of blocks `0 … n`: at point 0 the
  cell is zeroed and block 0's total is added; at every later point the point's block total is added to what the
  point before left. At the last point the output block is a copy of the cell. Proved by induction on the point over
  the frame certificate's case equations, never by listing the 32 points.
-/
import proofs.«157379_j20830591386196_1_alg».proof.Proof.Pieces
import proofs.«157379_j20830591386196_1_alg».proof.Proof.Payload

noncomputable section

open scoped BigOperators

open Idealize.ShloMosaic Idealize.ShloMosaic.TcCoe Idealize.SL.Sem

namespace Cert.KernelIdeal.Chain

open Cert.KernelIdeal Cert.KernelIdeal.Gen Cert.KernelIdeal.Pieces Cert.KernelIdeal.Payload Cert.GaussSum

/-! ## The scratch cell and the output block after a point, by the point's case (any float instance) -/

section AnyInstance

variable {F : FTy → Type} [FloatOps F]
variable (m : (ℓ : Loc nD τ sig) → Buf (Elt F) ℓ)

/-- After the first point the cell holds the body's value over the zero cell. -/
theorem scratch_at_first (c : Dev nD) (t : Fin cfg0.N) (h0 : t.val % 32 = 0) (h1 : ¬t.val % 32 = 31) :
    (outsAt0 m c t.val t.isLt).2 = k0_pay2 (iblk m c 0 t) (iblk m c 1 t) (k0_pay1 (F := F)) := by
  rw [outsAt0_A m c t h0 h1]
  exact scratch_A (F := F) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- After a middle point the cell holds the body's value over what the point before left. -/
theorem scratch_at_middle (c : Dev nD) (t : Fin cfg0.N) (h0 : ¬t.val % 32 = 0) (h1 : ¬t.val % 32 = 31) :
    (outsAt0 m c t.val t.isLt).2
      = k0_pay2 (iblk m c 0 t) (iblk m c 1 t) (outsAt0 m c (t.val - 1) (Nat.lt_of_le_of_lt (Nat.sub_le _ _) t.isLt)).2 := by
  rw [outsAt0_B m c t h0 h1]
  exact scratch_B (F := F) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- After the last point likewise, -/
theorem scratch_at_last (c : Dev nD) (t : Fin cfg0.N) (h0 : ¬t.val % 32 = 0) (h1 : t.val % 32 = 31) :
    (outsAt0 m c t.val t.isLt).2
      = k0_pay2 (iblk m c 0 t) (iblk m c 1 t) (outsAt0 m c (t.val - 1) (Nat.lt_of_le_of_lt (Nat.sub_le _ _) t.isLt)).2 := by
  rw [outsAt0_C m c t h0 h1]
  exact scratch_C (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and the output block holds the same value as the cell. -/
theorem out_at_last (c : Dev nD) (t : Fin cfg0.N) (h0 : ¬t.val % 32 = 0) (h1 : t.val % 32 = 31) :
    (outsAt0 m c t.val t.isLt).1 = (outsAt0 m c t.val t.isLt).2 := by
  rw [outsAt0_C m c t h0 h1]
  exact (out_C (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).trans
    (scratch_C (F := F) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2).symm

end AnyInstance

/-! ## At the ideal instance: the cell holds the sum of the block totals so far -/

section AtIdeal

variable (m : (ℓ : Loc nD τ sig) → Buf (Elt Ideal) ℓ)

/-- The two input blocks of point `t`, as arrays of 256 rows. -/
abbrev blockX (c : Dev nD) (t : Fin cfg0.N) : Vec Ideal S256x2048x2 .f32 := iblk m c 0 t
abbrev blockY (c : Dev nD) (t : Fin cfg0.N) : Vec Ideal S256x2048x2 .f32 := iblk m c 1 t

/-- The total of block `t` (zero past the grid, so that a running sum over the naturals can be written). -/
def blockTotal (c : Dev nD) (t : ℕ) : EReal :=
  if h : t < cfg0.N then total (n := 256) (blockX m c ⟨t, h⟩) (blockY m c ⟨t, h⟩) else 0

theorem blockTotal_of_lt (c : Dev nD) (t : ℕ) (h : t < cfg0.N) :
    blockTotal m c t = total (n := 256) (blockX m c ⟨t, h⟩) (blockY m c ⟨t, h⟩) := dif_pos h

/-- After point `n` the cell holds the totals of blocks `0 … n`, summed. -/
theorem scratch_total (c : Dev nD) : ∀ (n : ℕ) (h : n < cfg0.N) (j : S1x1.Idx),
    (outsAt0 m c n h).2 j = ∑ t ∈ Finset.range (n + 1), blockTotal m c t
  | 0, h, j => by
    refine (congrFun (scratch_at_first m c ⟨0, h⟩ rfl (show ¬(0 : ℕ) % 32 = 31 by decide)) j).trans ?_
    refine (pay2_apply (blockX m c ⟨0, h⟩) (blockY m c ⟨0, h⟩) (k0_pay1 (F := Ideal)) j).trans ?_
    rw [pay1_apply, zero_add, Finset.sum_range_one, blockTotal_of_lt m c 0 h]
  | n + 1, h, j => by
    have hN : cfg0.N = 32 := N_0
    have h0 : ¬(⟨n + 1, h⟩ : Fin cfg0.N).val % 32 = 0 := by dsimp only; omega
    have step : (outsAt0 m c (n + 1) h).2 j
        = (outsAt0 m c n (Nat.lt_of_succ_lt h)).2 j + total (n := 256) (blockX m c ⟨n + 1, h⟩) (blockY m c ⟨n + 1, h⟩) := by
      by_cases h1 : (⟨n + 1, h⟩ : Fin cfg0.N).val % 32 = 31
      · refine (congrFun (scratch_at_last m c ⟨n + 1, h⟩ h0 h1) j).trans ?_
        exact pay2_apply (blockX m c ⟨n + 1, h⟩) (blockY m c ⟨n + 1, h⟩) (outsAt0 m c n (Nat.lt_of_succ_lt h)).2 j
      · refine (congrFun (scratch_at_middle m c ⟨n + 1, h⟩ h0 h1) j).trans ?_
        exact pay2_apply (blockX m c ⟨n + 1, h⟩) (blockY m c ⟨n + 1, h⟩) (outsAt0 m c n (Nat.lt_of_succ_lt h)).2 j
    rw [step, scratch_total c n (Nat.lt_of_succ_lt h) j, Finset.sum_range_succ _ (n + 1), blockTotal_of_lt m c (n + 1) h]

/-- After the last point the output block holds the sum of all 32 block totals. -/
theorem out_total (c : Dev nD) (t : Fin cfg0.N) (h1 : t.val % 32 = 31) (j : S1x1.Idx) :
    (outsAt0 m c t.val t.isLt).1 j = ∑ s : Fin cfg0.N, total (n := 256) (blockX m c s) (blockY m c s) := by
  have hN : cfg0.N = 32 := N_0
  have ht : t.val < 32 := lt_of_lt_of_eq t.isLt hN
  have h0 : ¬t.val % 32 = 0 := by omega
  rw [out_at_last m c t h0 h1, scratch_total m c t.val t.isLt j]
  have e : t.val + 1 = cfg0.N := by omega
  rw [e]
  exact sum_range_eq cfg0.N fun s => total (n := 256) (blockX m c s) (blockY m c s)

end AtIdeal

end Cert.KernelIdeal.Chain

end
-- ==== Proof.KernelValue.lean ====
/-
  What the kernel's program returns, at the ideal instance.

  Block `t` of either argument, as the kernel's window reads it, is rows `256 t … 256 t + 255` of the argument, so the
  32 block totals add up to the whole array's total (`GaussSum.total_blocks`). Only the last grid point writes the
  one-cell output block back, and that block is the whole one-by-one result array, so the array ends holding the
  total in its one cell. The two host operations after the kernel reshape that array to a scalar and divide it by
  8192: the program's result is `GaussSum.result` of its two arguments.
-/
import proofs.«157379_j20830591386196_1_alg».proof.Proof.Chain
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KernelValue

open Cert.KernelIdeal Cert.KernelIdeal.Gen Cert.KernelIdeal.Chain Cert.GaussSum
open Idealize.ShloMosaic.ValueIdx

variable (m : (ℓ : Loc nD τ sig) → Buf (Elt Ideal) ℓ) (ρ : Dev nD → PrngReg)

/-- The two argument arrays on core `c`. -/
abbrev argX (c : Dev nD) : Arr.Idx → EReal := m ((c : Thread nD τ).loc main_arg0)
abbrev argY (c : Dev nD) : Arr.Idx → EReal := m ((c : Thread nD τ).loc main_arg1)

theorem hN : cfg0.N = 32 := N_0

/-! ## The windows' block indices, decided once over the grid -/

/-- Both inputs' block at point `t` is block `(t, 0, 0)`; the output's is always block `(0, 0)`, never clipped. -/
theorem index0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem index1 : ∀ t : Fin cfg0.N, win0_1.index t 0 = t.val ∧ win0_1.index t 1 = 0 ∧ win0_1.index t 2 = 0 :=
  (by decide +kernel : ∀ t : Fin grid0.N, win0_1.index t 0 = t.val ∧ win0_1.index t 1 = 0 ∧ win0_1.index t 2 = 0)
theorem index2 : ∀ t : Fin cfg0.N, win0_2.index t 0 = 0 ∧ win0_2.index t 1 = 0
    ∧ win0_2.xsize (grid0.coords t) 0 = 1 ∧ win0_2.xsize (grid0.coords t) 1 = 1 :=
  (by decide +kernel : ∀ t : Fin grid0.N, win0_2.index t 0 = 0 ∧ win0_2.index t 1 = 0
    ∧ win0_2.xsize (grid0.coords t) 0 = 1 ∧ win0_2.xsize (grid0.coords t) 1 = 1)

/-! ## A block is 256 consecutive rows of its argument -/

theorem blockX_apply (c : Dev nD) (t : Fin 32) (r : Fin 256) (k : Fin 2048) (j : Fin 2) :
    blockX m c (finCongr hN.symm t) (ix3 r k j) = argX m c (ix3 (rowOf t r) k j) := by
  show ((cfg0.win 0).blk (finCongr hN.symm t)).view.read (Elt Ideal) (V m c (Pipeline.arrRef spec0 0)) (ix3 r k j) = _
  rw [View.read_apply]
  show V m c main_arg0 _ = m ((c : Thread nD τ).loc main_arg0) _
  rw [V_main_arg0]
  refine congrArg _ (funext fun a => Fin.ext ?_)
  match a with
  | ⟨0, _⟩ =>
    show win0_0.index (finCongr hN.symm t) 0 * 256 + 1 * r.val = 256 * t.val + r.val
    rw [(index0 (finCongr hN.symm t)).1]; show t.val * 256 + 1 * r.val = _; omega
  | ⟨1, _⟩ =>
    show win0_0.index (finCongr hN.symm t) 1 * 2048 + 1 * k.val = k.val
    rw [(index0 (finCongr hN.symm t)).2.1]; omega
  | ⟨2, _⟩ =>
    show win0_0.index (finCongr hN.symm t) 2 * 2 + 1 * j.val = j.val
    rw [(index0 (finCongr hN.symm t)).2.2]; omega

theorem blockY_apply (c : Dev nD) (t : Fin 32) (r : Fin 256) (k : Fin 2048) (j : Fin 2) :
    blockY m c (finCongr hN.symm t) (ix3 r k j) = argY m c (ix3 (rowOf t r) k j) := by
  show ((cfg0.win 1).blk (finCongr hN.symm t)).view.read (Elt Ideal) (V m c (Pipeline.arrRef spec0 1)) (ix3 r k j) = _
  rw [View.read_apply]
  show V m c main_arg1 _ = m ((c : Thread nD τ).loc main_arg1) _
  rw [V_main_arg1]
  refine congrArg _ (funext fun a => Fin.ext ?_)
  match a with
  | ⟨0, _⟩ =>
    show win0_1.index (finCongr hN.symm t) 0 * 256 + 1 * r.val = 256 * t.val + r.val
    rw [(index1 (finCongr hN.symm t)).1]; show t.val * 256 + 1 * r.val = _; omega
  | ⟨1, _⟩ =>
    show win0_1.index (finCongr hN.symm t) 1 * 2048 + 1 * k.val = k.val
    rw [(index1 (finCongr hN.symm t)).2.1]; omega
  | ⟨2, _⟩ =>
    show win0_1.index (finCongr hN.symm t) 2 * 2 + 1 * j.val = j.val
    rw [(index1 (finCongr hN.symm t)).2.2]; omega

/-- So the 32 block totals add up to the total of the two arguments. -/
theorem blocks_total (c : Dev nD) :
    ∑ s : Fin cfg0.N, total (n := 256) (blockX m c s) (blockY m c s) = total (argX m c) (argY m c) := by
  refine (Equiv.sum_comp (finCongr hN.symm) (fun s => total (n := 256) (blockX m c s) (blockY m c s))).symm.trans ?_
  exact total_blocks (argX m c) (argY m c) (fun t => blockX m c (finCongr hN.symm t)) (fun t => blockY m c (finCongr hN.symm t))
    (blockX_apply m c) (blockY_apply m c)

/-! ## The result array of the kernel call -/

/-- The one-by-one array the kernel call returns: the total in its one cell. -/
abbrev outArr (c : Dev nD) : Buf (Elt Ideal) ((c : Thread nD τ).loc main_v0) := fun _ => total (argX m c) (argY m c)

/-- The one write-back, at the last point, writes it. -/
theorem flushed_eq (c : Dev nD) (t : Fin cfg0.N) (hf : (cfg0.win 2).flush t = true) :
    (dats m 0 c).flushed 2 t = ((cfg0.win 2).blk t).view.read (Elt Ideal) (outArr m c) := by
  have h1 : t.val % 32 = 31 := (flush0_2 t).mp hf
  funext y
  rw [View.read_apply]
  show (dats m 0 c).after 2 t ((cfg0.win 2).xinj (grid0.coords t) y) = total (argX m c) (argY m c)
  rw [after0_2]
  exact (out_total m c t h1 _).trans (blocks_total m c)

/-- The last grid point. -/
abbrev lastPoint : Fin cfg0.N := ⟨31, by rw [hN]; decide⟩

/-- Its block is the whole array, so the array ends holding the total. -/
theorem final (c : Dev nD) : (dats m 0 c).arrAt 2 cfg0.N = outArr m c :=
  (dats m 0 c).arrAt_eq_of_cover 2 (outArr m c) (flushed_eq m c) fun i =>
    ⟨lastPoint, (flush0_2 lastPoint).mpr rfl, by
      show i ∈ ((View.whole main_v0).slice (win0_2.rect lastPoint)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index lastPoint 0 * win0_2.size 0 ≤ (i 0 : Nat)
          ∧ (i 0 : Nat) < win0_2.index lastPoint 0 * win0_2.size 0 + win0_2.xsize (grid0.coords lastPoint) 0
        rw [(index2 lastPoint).1, (index2 lastPoint).2.2.1]; omega
      | ⟨1, _⟩ =>
        show win0_2.index lastPoint 1 * win0_2.size 1 ≤ (i 1 : Nat)
          ∧ (i 1 : Nat) < win0_2.index lastPoint 1 * win0_2.size 1 + win0_2.xsize (grid0.coords lastPoint) 1
        rw [(index2 lastPoint).2.1, (index2 lastPoint).2.2.2]; omega⟩

/-! ## The host operations after the kernel call, and the run -/

/-- The program's result buffer after the two host operations: the total over 8192. -/
theorem tail_eq (c : Dev nD) :
    Pipeline.afterTail₀ cfgs (dats m) 0 (V0 m) [hostOps1] c main_v2 = result (argX m c) (argY m c) := by
  have e : Pipeline.withArrays (cfgs 0).spec c (V0 m c) (fun w => (dats m 0 c).arrAt w (cfgs 0).N) (Proc.devRef .tc main_v0)
      = outArr m c :=
    (Pipeline.withArrays_arr spec0 launch0.win.arr_inj c _ _ 2).trans (final m c)
  unfold Pipeline.afterTail₀
  show StableHlo.after hostOps1 _ (Proc.devRef .tc main_v2) = _
  after_results
  rw [e]
  rfl

/-- The kernel's program, run: every weakly fair execution terminates with the result buffer at the specification of
    the two argument arrays, which are left unchanged. -/
theorem run : θ_run defs (onTc (τ := τ) (main (F := Ideal))) ⟨m, fun _ => 0, ρ⟩ fun r => ∀ c : Dev nD,
      r.2.mem ((c.tc : Thread nD τ).loc main_v2) = result (argX m c) (argY m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelValue

end
-- ==== Proof.RefValue.lean ====
/-
  The reference program computes `GaussSum.result`.

  Read one operation at a time at the ideal instance, its result is
      (0 + ∑ over all (b, k) of 1 · exp ( (-(0 + ∑ j, (x - y)²)) / 2 )) / 8192.
  The two zeros and the factor one drop out, the exponent is `sqDist · (-1/2)` by `neg_div_two`, and the sum over the
  rank-2 index set is the double sum over rows and keypoints.
-/
import proofs.«157379_j20830591386196_1_alg».proof.Proof.Gen.ReferenceIdeal.Read
import proofs.«157379_j20830591386196_1_alg».proof.Proof.Spec

noncomputable section

open scoped BigOperators

namespace Cert.ReferenceIdeal.RefValue

open Cert.ReferenceIdeal Cert.ReferenceIdeal.Read Cert.GaussSum
open Idealize.ShloMosaic Idealize.ShloMosaic.ValueIdx

/-- The element of the difference array that the inner sum reads at `(b, k)` and `j` is `(b, k, j)`. -/
theorem idx_v2 (i : S8192x2048.Idx) (k : Fin 2) : idx_main_v2 i k = ix3 (i 0) (i 1) k :=
  funext fun a => Fin.ext (by match a with | ⟨0, _⟩ => rfl | ⟨1, _⟩ => rfl | ⟨2, _⟩ => rfl)

/-- The reference's result, at the ideal instance, is the specification. -/
theorem ref_eq (x0 x1 : (⟨S8192x2048x2, .f32⟩ : BufTy).Contents (Elt Ideal)) :
    val_main_v10 (F := Ideal) x0 x1 = result x0 x1 := by
  funext i
  rw [val_main_v10_apply, val_main_v9_apply]
  simp only [val_main_v8_apply, val_main_v7_apply, val_main_cst_1_apply, val_main_v6_apply, val_main_v5_apply,
    val_main_v4_apply, val_main_cst_0_apply, val_main_v3_apply, val_main_v2_apply, val_main_cst_apply,
    val_main_v1_apply, val_main_v0_apply, val_main_cst_2_apply, val_main_cst_3_apply, idx_v2,
    Ideal.ofBits_def, Ideal.hostDivf_def, Ideal.mulf_def, Ideal.subf_def, Ideal.hostUnary_exp_def, Ideal.hostNegf_def,
    Ideal.negf_def, Ideal.ofBits_zero_f32, zero_add, ofBits_one, one_mul, neg_div_two]
  unfold result total gauss sqDist
  rw [sum_idx2]
  rfl

end Cert.ReferenceIdeal.RefValue

end
-- ==== Proof.lean ====
/-
  The kernel and its reference compute the same number.

  Both programs take two arrays `x y` of shape [8192, 2048, 2] and return
      ( ∑ b < 8192, ∑ k < 2048, exp ( (∑ j < 2, (x b k j - y b k j)²) · (-1/2) ) ) / 8192
  (`GaussSum.result`, Proof/Spec.lean). The reference computes it in one pass over the whole arrays, writing the
  exponent as `(-sq) / 2` (Proof/RefValue.lean). The kernel walks 32 blocks of 256 rows, adds each block's total to a
  one-cell running total that starts at zero, writes the cell out after the last block, and the host divides by 8192
  (Proof/Pieces.lean: what one run of the body leaves; Proof/Payload.lean: the body's arithmetic; Proof/Chain.lean: the
  running total by induction on the block; Proof/KernelValue.lean: the blocks tile the rows, the write-back, the
  division). Over the extended reals the two agree for all inputs: sums may be regrouped and reordered freely,
  `(-s) / 2 = s · (-1/2)` at the infinities too, `0 + s = s` and `1 · s = s`. The precondition (finite inputs) is not used.
  Nothing of the kernel is rewritten by idealization, so that conjunct is trivial; the three programs terminate
  without fault and leave their arguments unchanged by the frame certificates and by the reference's run.
-/
import proofs.«157379_j20830591386196_1_alg».proof.Defs
import proofs.«157379_j20830591386196_1_alg».proof.Proof.Gen.Kernel
import proofs.«157379_j20830591386196_1_alg».proof.Proof.Gen.Kernel.Skeleton
import proofs.«157379_j20830591386196_1_alg».proof.Proof.Gen.Kernel.Launch
import proofs.«157379_j20830591386196_1_alg».proof.Proof.Gen.Kernel.Points
import proofs.«157379_j20830591386196_1_alg».proof.Proof.Gen.Kernel.Frame
import proofs.«157379_j20830591386196_1_alg».proof.Proof.Gen.KernelIdeal
import proofs.«157379_j20830591386196_1_alg».proof.Proof.Gen.KernelIdeal.Skeleton
import proofs.«157379_j20830591386196_1_alg».proof.Proof.Gen.KernelIdeal.Launch
import proofs.«157379_j20830591386196_1_alg».proof.Proof.Gen.KernelIdeal.Points
import proofs.«157379_j20830591386196_1_alg».proof.Proof.Gen.KernelIdeal.Frame
import proofs.«157379_j20830591386196_1_alg».proof.Proof.Gen.ReferenceIdeal
import proofs.«157379_j20830591386196_1_alg».proof.Proof.Gen.Pre_finite_inputs
import proofs.«157379_j20830591386196_1_alg».proof.Proof.Gen.ReferenceIdeal.Run
import proofs.«157379_j20830591386196_1_alg».proof.Proof.Gen.ReferenceIdeal.Read
import proofs.«157379_j20830591386196_1_alg».proof.Proof.KernelValue
import proofs.«157379_j20830591386196_1_alg».proof.Proof.RefValue
import Idealize.ShloMosaic.Adequacy
import Idealize.ShloMosaic.Init

noncomputable section

namespace Cert.Proof

open Idealize.ShloMosaic Idealize.SL.Sem

/-- The kernel as printed runs to the end and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the two arguments, both programs end with `GaussSum.result` of those arguments. -/
theorem algebraic : Cert.algebraic_KernelIdeal_ReferenceIdeal := by
  intro m ρ m' ρ' _ hagree
  refine ⟨fun c => Cert.GaussSum.result (Cert.KernelIdeal.KernelValue.argX m c) (Cert.KernelIdeal.KernelValue.argY m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
